-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x64 : Shape := ⟨3, ![8, 512, 64]⟩
abbrev S1x4 : Shape := ⟨2, ![1, 4]⟩
abbrev S4 : Shape := ⟨1, ![4]⟩
abbrev S_ : Shape := ⟨0, ![]⟩

class Facts : Prop where
  bcast_S_S8x512x64 : S_.BroadcastsInDim S8x512x64 (![] : Fin 0 → Fin S8x512x64.rank)
  reducesTo_S8x512x64_S_d0_1_2 : S8x512x64.ReducesTo [0, 1, 2] S_
  h_S_ : 0 < S_.numel
  bcast_S_S1x4 : S_.BroadcastsInDim S1x4 (![] : Fin 0 → Fin S1x4.rank)
  reducesTo_S1x4_S_d0_1 : S1x4.ReducesTo [0, 1] S_
  bcast_S_S4 : S_.BroadcastsInDim S4 (![] : Fin 0 → Fin S4.rank)
  reducesTo_S4_S_d0 : S4.ReducesTo [0] S_

variable [Facts]

def fn {F : FTy → Type} [FloatOps F] (main_arg0 : FVec F S8x512x64 .f32) (main_arg1 : FVec F S1x4 .f32) (main_arg2 : FVec F S4 .f32) : IVec S_ 1 :=
  let main_v0 : FVec F S8x512x64 .f32 := Host.absf main_arg0
  let main_cst : FVec F S_ .f32 := constant S_ .f32 0x7F800000#32
  let main_v1 : FVec F S8x512x64 .f32 := broadcastInDim S8x512x64 ![] bcast_S_S8x512x64 main_cst
  let main_v2 : IVec S8x512x64 1 := cmpf .olt main_v0 main_v1
  let main_c : IVec S_ 1 := constantI S_ 1 1#1
  let main_v3 : IVec S_ 1 := (fun x v => Host.reduce IntOp.andi x v reducesTo_S8x512x64_S_d0_1_2 h_S_) main_v2 main_c
  let main_v4 : FVec F S1x4 .f32 := Host.absf main_arg1
  let main_cst_0 : FVec F S_ .f32 := constant S_ .f32 0x7F800000#32
  let main_v5 : FVec F S1x4 .f32 := broadcastInDim S1x4 ![] bcast_S_S1x4 main_cst_0
  let main_v6 : IVec S1x4 1 := cmpf .olt main_v4 main_v5
  let main_c_1 : IVec S_ 1 := constantI S_ 1 1#1
  let main_v7 : IVec S_ 1 := (fun x v => Host.reduce IntOp.andi x v reducesTo_S1x4_S_d0_1 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  main_v13
-- ==== Kernel.lean ====
abbrev S8x512x64 : Shape := ⟨3, ![8, 512, 64]⟩
abbrev S1x4 : Shape := ⟨2, ![1, 4]⟩
abbrev S4 : Shape := ⟨1, ![4]⟩
abbrev S4x512x64 : Shape := ⟨3, ![4, 512, 64]⟩
abbrev S4x64x512 : Shape := ⟨3, ![4, 64, 512]⟩
abbrev S4x4 : Shape := ⟨2, ![4, 4]⟩
abbrev S1x512x64 : Shape := ⟨3, ![1, 512, 64]⟩
abbrev S512x64 : Shape := ⟨2, ![512, 64]⟩
abbrev S1x64x512 : Shape := ⟨3, ![1, 64, 512]⟩
abbrev S64x512 : Shape := ⟨2, ![64, 512]⟩
abbrev S512x512 : Shape := ⟨2, ![512, 512]⟩
abbrev S512x1 : Shape := ⟨2, ![512, 1]⟩
abbrev S512 : Shape := ⟨1, ![512]⟩
abbrev S1x512 : Shape := ⟨2, ![1, 512]⟩
abbrev S1 : Shape := ⟨1, ![1]⟩
abbrev S1x1 : Shape := ⟨2, ![1, 1]⟩

abbrev nBuf : Space → Nat
  | .hbm => 8
  | .vmem => 5
  | .smem => 0
  | _ => 0

abbrev bufTy : (tb : Table) → Fin (tcTables nBuf tb) → BufTy
  | .hbm, ⟨0, _⟩ => ⟨S8x512x64, .f32⟩
  | .hbm, ⟨1, _⟩ => ⟨S1x4, .f32⟩
  | .hbm, ⟨2, _⟩ => ⟨S4, .f32⟩
  | .hbm, ⟨3, _⟩ => ⟨S4x512x64, .f32⟩
  | .hbm, ⟨4, _⟩ => ⟨S4x512x64, .f32⟩
  | .hbm, ⟨5, _⟩ => ⟨S4x64x512, .f32⟩
  | .hbm, ⟨6, _⟩ => ⟨S1x4, .f32⟩
  | .hbm, ⟨7, _⟩ => ⟨S4x4, .f32⟩
  | .local _ .vmem, ⟨0, _⟩ => ⟨S4x512x64, .f32⟩
  | .local _ .vmem, ⟨1, _⟩ => ⟨S4x64x512, .f32⟩
  | .local _ .vmem, ⟨2, _⟩ => ⟨S1x4, .f32⟩
  | .local _ .vmem, ⟨3, _⟩ => ⟨S1x4, .f32⟩
  | .local _ .vmem, ⟨4, _⟩ => ⟨S4x4, .f32⟩
  | _, _ => ⟨S8x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x512x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  slices_S8x512x64_S4x512x64_0_0_0 : S8x512x64.Slices ![0, 0, 0] S4x512x64
  slices_S8x512x64_S4x512x64_4_0_0 : S8x512x64.Slices ![4, 0, 0] S4x512x64
  transposes_S4x512x64_S4x64x512_0_2_1 : S4x512x64.Transposes [0, 2, 1] S4x64x512
  shapeCasts_S4_S1x4 : S4.ShapeCasts S1x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  inb_S4x512x64_S1x512x64_0_0_0 : ∀ a, (![0, 0, 0] : Fin 3 → Nat) a + S1x512x64.size a ≤ S4x512x64.size a
  h_S1x512x64 : 0 < S1x512x64.numel
  shapeCasts_S1x512x64_S512x64 : S1x512x64.ShapeCasts S512x64
  inb_S4x64x512_S1x64x512_0_0_0 : ∀ a, (![0, 0, 0] : Fin 3 → Nat) a + S1x64x512.size a ≤ S4x64x512.size a
  h_S1x64x512 : 0 < S1x64x512.numel
  shapeCasts_S1x64x512_S64x512 : S1x64x512.ShapeCasts S64x512
  slices_S512x64_o0_0_S512x1 : S512x64.Slices ![0, 0] S512x1
  shapeCasts_S512x1_S512 : S512x1.ShapeCasts S512
  slices_S64x512_o0_0_S1x512 : S64x512.Slices ![0, 0] S1x512
  shapeCasts_S1x512_S512 : S1x512.ShapeCasts S512
  shapeCasts_S512_S512x1 : S512.ShapeCasts S512x1
  shapeCasts_S512_S1x512 : S512.ShapeCasts S1x512
  broadcasts_S512x1_S512x512 : S512x1.Broadcasts S512x512
  broadcasts_S1x512_S512x512 : S1x512.Broadcasts S512x512
  slices_S512x64_o0_1_S512x1 : S512x64.Slices ![0, 1] S512x1
  slices_S64x512_o1_0_S1x512 : S64x512.Slices ![1, 0] S1x512
  slices_S512x64_o0_2_S512x1 : S512x64.Slices ![0, 2] S512x1
  slices_S64x512_o2_0_S1x512 : S64x512.Slices ![2, 0] S1x512
  slices_S512x64_o0_3_S512x1 : S512x64.Slices ![0, 3] S512x1
  slices_S64x512_o3_0_S1x512 : S64x512.Slices ![3, 0] S1x512
  slices_S512x64_o0_4_S512x1 : S512x64.Slices ![0, 4] S512x1
  slices_S64x512_o4_0_S1x512 : S64x512.Slices ![4, 0] S1x512
  slices_S512x64_o0_5_S512x1 : S512x64.Slices ![0, 5] S512x1
  slices_S64x512_o5_0_S1x512 : S64x512.Slices ![5, 0] S1x512
  slices_S512x64_o0_6_S512x1 : S512x64.Slices ![0, 6] S512x1
  slices_S64x512_o6_0_S1x512 : S64x512.Slices ![6, 0] S1x512
  slices_S512x64_o0_7_S512x1 : S512x64.Slices ![0, 7] S512x1
  slices_S64x512_o7_0_S1x512 : S64x512.Slices ![7, 0] S1x512
  slices_S512x64_o0_8_S512x1 : S512x64.Slices ![0, 8] S512x1
  slices_S64x512_o8_0_S1x512 : S64x512.Slices ![8, 0] S1x512
  slices_S512x64_o0_9_S512x1 : S512x64.Slices ![0, 9] S512x1
  slices_S64x512_o9_0_S1x512 : S64x512.Slices ![9, 0] S1x512
  slices_S512x64_o0_10_S512x1 : S512x64.Slices ![0, 10] S512x1
  slices_S64x512_o10_0_S1x512 : S64x512.Slices ![10, 0] S1x512
  slices_S512x64_o0_11_S512x1 : S512x64.Slices ![0, 11] S512x1
  slices_S64x512_o11_0_S1x512 : S64x512.Slices ![11, 0] S1x512
  slices_S512x64_o0_12_S512x1 : S512x64.Slices ![0, 12] S512x1
  slices_S64x512_o12_0_S1x512 : S64x512.Slices ![12, 0] S1x512
  slices_S512x64_o0_13_S512x1 : S512x64.Slices ![0, 13] S512x1
  slices_S64x512_o13_0_S1x512 : S64x512.Slices ![13, 0] S1x512
  slices_S512x64_o0_14_S512x1 : S512x64.Slices ![0, 14] S512x1
  slices_S64x512_o14_0_S1x512 : S64x512.Slices ![14, 0] S1x512
  slices_S512x64_o0_15_S512x1 : S512x64.Slices ![0, 15] S512x1
  slices_S64x512_o15_0_S1x512 : S64x512.Slices ![15, 0] S1x512
  slices_S512x64_o0_16_S512x1 : S512x64.Slices ![0, 16] S512x1
  slices_S64x512_o16_0_S1x512 : S64x512.Slices ![16, 0] S1x512
  slices_S512x64_o0_17_S512x1 : S512x64.Slices ![0, 17] S512x1
  slices_S64x512_o17_0_S1x512 : S64x512.Slices ![17, 0] S1x512
  slices_S512x64_o0_18_S512x1 : S512x64.Slices ![0, 18] S512x1
  slices_S64x512_o18_0_S1x512 : S64x512.Slices ![18, 0] S1x512
  slices_S512x64_o0_19_S512x1 : S512x64.Slices ![0, 19] S512x1
  slices_S64x512_o19_0_S1x512 : S64x512.Slices ![19, 0] S1x512
  slices_S512x64_o0_20_S512x1 : S512x64.Slices ![0, 20] S512x1
  slices_S64x512_o20_0_S1x512 : S64x512.Slices ![20, 0] S1x512
  slices_S512x64_o0_21_S512x1 : S512x64.Slices ![0, 21] S512x1
  slices_S64x512_o21_0_S1x512 : S64x512.Slices ![21, 0] S1x512
  slices_S512x64_o0_22_S512x1 : S512x64.Slices ![0, 22] S512x1
  slices_S64x512_o22_0_S1x512 : S64x512.Slices ![22, 0] S1x512
  slices_S512x64_o0_23_S512x1 : S512x64.Slices ![0, 23] S512x1
  slices_S64x512_o23_0_S1x512 : S64x512.Slices ![23, 0] S1x512
  slices_S512x64_o0_24_S512x1 : S512x64.Slices ![0, 24] S512x1
  slices_S64x512_o24_0_S1x512 : S64x512.Slices ![24, 0] S1x512
  slices_S512x64_o0_25_S512x1 : S512x64.Slices ![0, 25] S512x1
  slices_S64x512_o25_0_S1x512 : S64x512.Slices ![25, 0] S1x512
  slices_S512x64_o0_26_S512x1 : S512x64.Slices ![0, 26] S512x1
  slices_S64x512_o26_0_S1x512 : S64x512.Slices ![26, 0] S1x512
  slices_S512x64_o0_27_S512x1 : S512x64.Slices ![0, 27] S512x1
  slices_S64x512_o27_0_S1x512 : S64x512.Slices ![27, 0] S1x512
  slices_S512x64_o0_28_S512x1 : S512x64.Slices ![0, 28] S512x1
  slices_S64x512_o28_0_S1x512 : S64x512.Slices ![28, 0] S1x512
  slices_S512x64_o0_29_S512x1 : S512x64.Slices ![0, 29] S512x1
  slices_S64x512_o29_0_S1x512 : S64x512.Slices ![29, 0] S1x512
  slices_S512x64_o0_30_S512x1 : S512x64.Slices ![0, 30] S512x1
  slices_S64x512_o30_0_S1x512 : S64x512.Slices ![30, 0] S1x512
  slices_S512x64_o0_31_S512x1 : S512x64.Slices ![0, 31] S512x1
  slices_S64x512_o31_0_S1x512 : S64x512.Slices ![31, 0] S1x512
  slices_S512x64_o0_32_S512x1 : S512x64.Slices ![0, 32] S512x1
  slices_S64x512_o32_0_S1x512 : S64x512.Slices ![32, 0] S1x512
  slices_S512x64_o0_33_S512x1 : S512x64.Slices ![0, 33] S512x1
  slices_S64x512_o33_0_S1x512 : S64x512.Slices ![33, 0] S1x512
  slices_S512x64_o0_34_S512x1 : S512x64.Slices ![0, 34] S512x1
  slices_S64x512_o34_0_S1x512 : S64x512.Slices ![34, 0] S1x512
  slices_S512x64_o0_35_S512x1 : S512x64.Slices ![0, 35] S512x1
  slices_S64x512_o35_0_S1x512 : S64x512.Slices ![35, 0] S1x512
  slices_S512x64_o0_36_S512x1 : S512x64.Slices ![0, 36] S512x1
  slices_S64x512_o36_0_S1x512 : S64x512.Slices ![36, 0] S1x512
  slices_S512x64_o0_37_S512x1 : S512x64.Slices ![0, 37] S512x1
  slices_S64x512_o37_0_S1x512 : S64x512.Slices ![37, 0] S1x512
  slices_S512x64_o0_38_S512x1 : S512x64.Slices ![0, 38] S512x1
  slices_S64x512_o38_0_S1x512 : S64x512.Slices ![38, 0] S1x512
  slices_S512x64_o0_39_S512x1 : S512x64.Slices ![0, 39] S512x1
  slices_S64x512_o39_0_S1x512 : S64x512.Slices ![39, 0] S1x512
  slices_S512x64_o0_40_S512x1 : S512x64.Slices ![0, 40] S512x1
  slices_S64x512_o40_0_S1x512 : S64x512.Slices ![40, 0] S1x512
  slices_S512x64_o0_41_S512x1 : S512x64.Slices ![0, 41] S512x1
  slices_S64x512_o41_0_S1x512 : S64x512.Slices ![41, 0] S1x512
  slices_S512x64_o0_42_S512x1 : S512x64.Slices ![0, 42] S512x1
  slices_S64x512_o42_0_S1x512 : S64x512.Slices ![42, 0] S1x512
  slices_S512x64_o0_43_S512x1 : S512x64.Slices ![0, 43] S512x1
  slices_S64x512_o43_0_S1x512 : S64x512.Slices ![43, 0] S1x512
  slices_S512x64_o0_44_S512x1 : S512x64.Slices ![0, 44] S512x1
  slices_S64x512_o44_0_S1x512 : S64x512.Slices ![44, 0] S1x512
  slices_S512x64_o0_45_S512x1 : S512x64.Slices ![0, 45] S512x1
  slices_S64x512_o45_0_S1x512 : S64x512.Slices ![45, 0] S1x512
  slices_S512x64_o0_46_S512x1 : S512x64.Slices ![0, 46] S512x1
  slices_S64x512_o46_0_S1x512 : S64x512.Slices ![46, 0] S1x512
  slices_S512x64_o0_47_S512x1 : S512x64.Slices ![0, 47] S512x1
  slices_S64x512_o47_0_S1x512 : S64x512.Slices ![47, 0] S1x512
  slices_S512x64_o0_48_S512x1 : S512x64.Slices ![0, 48] S512x1
  slices_S64x512_o48_0_S1x512 : S64x512.Slices ![48, 0] S1x512
  slices_S512x64_o0_49_S512x1 : S512x64.Slices ![0, 49] S512x1
  slices_S64x512_o49_0_S1x512 : S64x512.Slices ![49, 0] S1x512
  slices_S512x64_o0_50_S512x1 : S512x64.Slices ![0, 50] S512x1
  slices_S64x512_o50_0_S1x512 : S64x512.Slices ![50, 0] S1x512
  slices_S512x64_o0_51_S512x1 : S512x64.Slices ![0, 51] S512x1
  slices_S64x512_o51_0_S1x512 : S64x512.Slices ![51, 0] S1x512
  slices_S512x64_o0_52_S512x1 : S512x64.Slices ![0, 52] S512x1
  slices_S64x512_o52_0_S1x512 : S64x512.Slices ![52, 0] S1x512
  slices_S512x64_o0_53_S512x1 : S512x64.Slices ![0, 53] S512x1
  slices_S64x512_o53_0_S1x512 : S64x512.Slices ![53, 0] S1x512
  slices_S512x64_o0_54_S512x1 : S512x64.Slices ![0, 54] S512x1
  slices_S64x512_o54_0_S1x512 : S64x512.Slices ![54, 0] S1x512
  slices_S512x64_o0_55_S512x1 : S512x64.Slices ![0, 55] S512x1
  slices_S64x512_o55_0_S1x512 : S64x512.Slices ![55, 0] S1x512
  slices_S512x64_o0_56_S512x1 : S512x64.Slices ![0, 56] S512x1
  slices_S64x512_o56_0_S1x512 : S64x512.Slices ![56, 0] S1x512
  slices_S512x64_o0_57_S512x1 : S512x64.Slices ![0, 57] S512x1
  slices_S64x512_o57_0_S1x512 : S64x512.Slices ![57, 0] S1x512
  slices_S512x64_o0_58_S512x1 : S512x64.Slices ![0, 58] S512x1
  slices_S64x512_o58_0_S1x512 : S64x512.Slices ![58, 0] S1x512
  slices_S512x64_o0_59_S512x1 : S512x64.Slices ![0, 59] S512x1
  slices_S64x512_o59_0_S1x512 : S64x512.Slices ![59, 0] S1x512
  slices_S512x64_o0_60_S512x1 : S512x64.Slices ![0, 60] S512x1
  slices_S64x512_o60_0_S1x512 : S64x512.Slices ![60, 0] S1x512
  slices_S512x64_o0_61_S512x1 : S512x64.Slices ![0, 61] S512x1
  slices_S64x512_o61_0_S1x512 : S64x512.Slices ![61, 0] S1x512
  slices_S512x64_o0_62_S512x1 : S512x64.Slices ![0, 62] S512x1
  slices_S64x512_o62_0_S1x512 : S64x512.Slices ![62, 0] S1x512
  slices_S512x64_o0_63_S512x1 : S512x64.Slices ![0, 63] S512x1
  slices_S64x512_o63_0_S1x512 : S64x512.Slices ![63, 0] S1x512
  reduces_S512x512_S512 : S512x512.Reduces [1] S512
  reduces_S512x512_S512_2 : S512x512.Reduces [0] S512
  reduces_S512x1_S1 : S512x1.Reduces [0] S1
  shapeCasts_S1_S1x1 : S1.ShapeCasts S1x1
  broadcasts_S1x1_S1x4 : S1x1.Broadcasts S1x4
  inb_S4x4_S1x4_0_0 : ∀ a, (![0, 0] : Fin 2 → Nat) a + S1x4.size a ≤ S4x4.size a
  inb_S4x512x64_S1x512x64_1_0_0 : ∀ a, (![1, 0, 0] : Fin 3 → Nat) a + S1x512x64.size a ≤ S4x512x64.size a
  inb_S4x64x512_S1x64x512_1_0_0 : ∀ a, (![1, 0, 0] : Fin 3 → Nat) a + S1x64x512.size a ≤ S4x64x512.size a
  inb_S4x4_S1x4_1_0 : ∀ a, (![1, 0] : Fin 2 → Nat) a + S1x4.size a ≤ S4x4.size a
  inb_S4x512x64_S1x512x64_2_0_0 : ∀ a, (![2, 0, 0] : Fin 3 → Nat) a + S1x512x64.size a ≤ S4x512x64.size a
  inb_S4x64x512_S1x64x512_2_0_0 : ∀ a, (![2, 0, 0] : Fin 3 → Nat) a + S1x64x512.size a ≤ S4x64x512.size a
  inb_S4x4_S1x4_2_0 : ∀ a, (![2, 0] : Fin 2 → Nat) a + S1x4.size a ≤ S4x4.size a
  inb_S4x512x64_S1x512x64_3_0_0 : ∀ a, (![3, 0, 0] : Fin 3 → Nat) a + S1x512x64.size a ≤ S4x512x64.size a
  inb_S4x64x512_S1x64x512_3_0_0 : ∀ a, (![3, 0, 0] : Fin 3 → Nat) a + S1x64x512.size a ≤ S4x64x512.size a
  inb_S4x4_S1x4_3_0 : ∀ a, (![3, 0] : Fin 2 → Nat) a + S1x4.size a ≤ S4x4.size a
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4x512x64.size a ≤ S4x512x64.size a
  hwx0_0 : ∀ i : grid0.Coords, EltTy.bits .f32 = 32 ∨ (Rect.block (s := S4x512x64) S4x512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64x512.size a ≤ S4x64x512.size a
  hwx0_1 : ∀ i : grid0.Coords, EltTy.bits .f32 = 32 ∨ (Rect.block (s := S4x64x512) S4x64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4.size a ≤ S1x4.size a
  hwx0_2 : ∀ i : grid0.Coords, EltTy.bits .f32 = 32 ∨ (Rect.block (s := S1x4) S1x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4.size a ≤ S1x4.size a
  hwx0_3 : ∀ i : grid0.Coords, EltTy.bits .f32 = 32 ∨ (Rect.block (s := S1x4) S1x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x4.size a ≤ S4x4.size a
  hwx0_4 : ∀ i : grid0.Coords, EltTy.bits .f32 = 32 ∨ (Rect.block (s := S4x4) S4x4.size (cc0_transform_4 i) (hinb0_4 i)).WholeWords (EltTy.packing .f32)

variable [Facts₀]

abbrev win0_0 : Pipeline.Window sig grid0 :=
  Pipeline.Window.ofSpec (Memref.whole main_v0) S4x512x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4x64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S4x4.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x512x64 : Shape := ⟨3, ![8, 512, 64]⟩
abbrev S1x4 : Shape := ⟨2, ![1, 4]⟩
abbrev S4 : Shape := ⟨1, ![4]⟩
abbrev S4x512x64 : Shape := ⟨3, ![4, 512, 64]⟩
abbrev S4x512x1x64 : Shape := ⟨4, ![4, 512, 1, 64]⟩
abbrev S4x1x512x64 : Shape := ⟨4, ![4, 1, 512, 64]⟩
abbrev S4x512x512x64 : Shape := ⟨4, ![4, 512, 512, 64]⟩
abbrev S_ : Shape := ⟨0, ![]⟩
abbrev S4x512x512 : Shape := ⟨3, ![4, 512, 512]⟩
abbrev S4x512 : Shape := ⟨2, ![4, 512]⟩
abbrev S4x512x1 : Shape := ⟨3, ![4, 512, 1]⟩
abbrev S4x1x512 : Shape := ⟨3, ![4, 1, 512]⟩
abbrev S1x1x4 : Shape := ⟨3, ![1, 1, 4]⟩
abbrev S4x1x1 : Shape := ⟨3, ![4, 1, 1]⟩
abbrev S4x1x4 : Shape := ⟨3, ![4, 1, 4]⟩
abbrev S4x4 : Shape := ⟨2, ![4, 4]⟩

abbrev nBuf : Space → Nat
  | .hbm => 61
  | .vmem => 0
  | .smem => 0
  | _ => 0

abbrev bufTy : (tb : Table) → Fin (tcTables nBuf tb) → BufTy
  | .hbm, ⟨0, _⟩ => ⟨S8x512x64, .f32⟩
  | .hbm, ⟨1, _⟩ => ⟨S1x4, .f32⟩
  | .hbm, ⟨2, _⟩ => ⟨S4, .f32⟩
  | .hbm, ⟨3, _⟩ => ⟨S4x512x64, .f32⟩
  | .hbm, ⟨4, _⟩ => ⟨S4x512x64, .f32⟩
  | .hbm, ⟨5, _⟩ => ⟨S4x512x1x64, .f32⟩
  | .hbm, ⟨6, _⟩ => ⟨S4x1x512x64, .f32⟩
  | .hbm, ⟨7, _⟩ => ⟨S4x512x512x64, .f32⟩
  | .hbm, ⟨8, _⟩ => ⟨S4x512x512x64, .f32⟩
  | .hbm, ⟨9, _⟩ => ⟨S4x512x512x64, .f32⟩
  | .hbm, ⟨10, _⟩ => ⟨S4x512x512x64, .f32⟩
  | .hbm, ⟨11, _⟩ => ⟨S_, .f32⟩
  | .hbm, ⟨12, _⟩ => ⟨S4x512x512, .f32⟩
  | .hbm, ⟨13, _⟩ => ⟨S4x512x512, .f32⟩
  | .hbm, ⟨14, _⟩ => ⟨S_, .f32⟩
  | .hbm, ⟨15, _⟩ => ⟨S4x512, .f32⟩
  | .hbm, ⟨16, _⟩ => ⟨S_, .f32⟩
  | .hbm, ⟨17, _⟩ => ⟨S4x512, .f32⟩
  | .hbm, ⟨18, _⟩ => ⟨S4x512, .f32⟩
  | .hbm, ⟨19, _⟩ => ⟨S4x512x1, .f32⟩
  | .hbm, ⟨20, _⟩ => ⟨S4x512x512, .f32⟩
  | .hbm, ⟨21, _⟩ => ⟨S4x512x512, .f32⟩
  | .hbm, ⟨22, _⟩ => ⟨S4x512x512, .f32⟩
  | .hbm, ⟨23, _⟩ => ⟨S_, .f32⟩
  | .hbm, ⟨24, _⟩ => ⟨S4x512, .f32⟩
  | .hbm, ⟨25, _⟩ => ⟨S4x512x1, .f32⟩
  | .hbm, ⟨26, _⟩ => ⟨S4x512x512, .f32⟩
  | .hbm, ⟨27, _⟩ => ⟨S4x512x512, .f32⟩
  | .hbm, ⟨28, _⟩ => ⟨S_, .f32⟩
  | .hbm, ⟨29, _⟩ => ⟨S4x512, .f32⟩
  | .hbm, ⟨30, _⟩ => ⟨S_, .f32⟩
  | .hbm, ⟨31, _⟩ => ⟨S4x512, .f32⟩
  | .hbm, ⟨32, _⟩ => ⟨S4x512, .f32⟩
  | .hbm, ⟨33, _⟩ => ⟨S4x1x512, .f32⟩
  | .hbm, ⟨34, _⟩ => ⟨S4x512x512, .f32⟩
  | .hbm, ⟨35, _⟩ => ⟨S4x512x512, .f32⟩
  | .hbm, ⟨36, _⟩ => ⟨S4x512x512, .f32⟩
  | .hbm, ⟨37, _⟩ => ⟨S_, .f32⟩
  | .hbm, ⟨38, _⟩ => ⟨S4x512, .f32⟩
  | .hbm, ⟨39, _⟩ => ⟨S4x1x512, .f32⟩
  | .hbm, ⟨40, _⟩ => ⟨S4x512x512, .f32⟩
  | .hbm, ⟨41, _⟩ => ⟨S4x512x512, .f32⟩
  | .hbm, ⟨42, _⟩ => ⟨S4x512x512, .f32⟩
  | .hbm, ⟨43, _⟩ => ⟨S4x512x512, .f32⟩
  | .hbm, ⟨44, _⟩ => ⟨S4x512x512, .f32⟩
  | .hbm, ⟨45, _⟩ => ⟨S4x512x512, .f32⟩
  | .hbm, ⟨46, _⟩ => ⟨S_, .f32⟩
  | .hbm, ⟨47, _⟩ => ⟨S4, .f32⟩
  | .hbm, ⟨48, _⟩ => ⟨S_, .f32⟩
  | .hbm, ⟨49, _⟩ => ⟨S4, .f32⟩
  | .hbm, ⟨50, _⟩ => ⟨S4, .f32⟩
  | .hbm, ⟨51, _⟩ => ⟨S1x1x4, .f32⟩
  | .hbm, ⟨52, _⟩ => ⟨S4x1x1, .f32⟩
  | .hbm, ⟨53, _⟩ => ⟨S4x1x4, .f32⟩
  | .hbm, ⟨54, _⟩ => ⟨S4x1x4, .f32⟩
  | .hbm, ⟨55, _⟩ => ⟨S4x1x4, .f32⟩
  | .hbm, ⟨56, _⟩ => ⟨S1x4, .f32⟩
  | .hbm, ⟨57, _⟩ => ⟨S1x1x4, .f32⟩
  | .hbm, ⟨58, _⟩ => ⟨S4x1x4, .f32⟩
  | .hbm, ⟨59, _⟩ => ⟨S4x1x4, .f32⟩
  | .hbm, ⟨60, _⟩ => ⟨S4x4, .f32⟩
  | _, _ => ⟨S8x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩

abbrev nD : Nat := 1
abbrev τ : Topo := Topo.v7x

variable {F : FTy → Type} [FloatOps F]

class Facts₀ : Prop where
  slices_S8x512x64_S4x512x64_0_0_0 : S8x512x64.Slices ![0, 0, 0] S4x512x64
  slices_S8x512x64_S4x512x64_4_0_0 : S8x512x64.Slices ![4, 0, 0] S4x512x64
  bcast_S4x512x64_S4x512x1x64_0_1_3 : S4x512x64.BroadcastsInDim S4x512x1x64 (![0, 1, 3] : Fin 3 → Fin S4x512x1x64.rank)
  bcast_S4x512x64_S4x1x512x64_0_2_3 : S4x512x64.BroadcastsInDim S4x1x512x64 (![0, 2, 3] : Fin 3 → Fin S4x1x512x64.rank)
  bcast_S4x512x1x64_S4x512x512x64_0_1_2_3 : S4x512x1x64.BroadcastsInDim S4x512x512x64 (![0, 1, 2, 3] : Fin 4 → Fin S4x512x512x64.rank)
  bcast_S4x1x512x64_S4x512x512x64_0_1_2_3 : S4x1x512x64.BroadcastsInDim S4x512x512x64 (![0, 1, 2, 3] : Fin 4 → Fin S4x512x512x64.rank)
  reducesTo_S4x512x512x64_S4x512x512_d3 : S4x512x512x64.ReducesTo [3] S4x512x512
  h_S_ : 0 < S_.numel
  reducesTo_S4x512x512_S4x512_d2 : S4x512x512.ReducesTo [2] S4x512
  bcast_S_S4x512 : S_.BroadcastsInDim S4x512 (![] : Fin 0 → Fin S4x512.rank)
  bcast_S4x512_S4x512x1_0_1 : S4x512.BroadcastsInDim S4x512x1 (![0, 1] : Fin 2 → Fin S4x512x1.rank)
  bcast_S4x512x1_S4x512x512_0_1_2 : S4x512x1.BroadcastsInDim S4x512x512 (![0, 1, 2] : Fin 3 → Fin S4x512x512.rank)
  reducesTo_S4x512x512_S4x512_d1 : S4x512x512.ReducesTo [1] S4x512
  bcast_S4x512_S4x1x512_0_2 : S4x512.BroadcastsInDim S4x1x512 (![0, 2] : Fin 2 → Fin S4x1x512.rank)
  bcast_S4x1x512_S4x512x512_0_1_2 : S4x1x512.BroadcastsInDim S4x512x512 (![0, 1, 2] : Fin 3 → Fin S4x512x512.rank)
  reducesTo_S4x512x512_S4_d1_2 : S4x512x512.ReducesTo [1, 2] S4
  bcast_S1x4_S1x1x4_1_2 : S1x4.BroadcastsInDim S1x1x4 (![1, 2] : Fin 2 → Fin S1x1x4.rank)
  bcast_S4_S4x1x1_0 : S4.BroadcastsInDim S4x1x1 (![0] : Fin 1 → Fin S4x1x1.rank)
  bcast_S4x1x1_S4x1x4_0_1_2 : S4x1x1.BroadcastsInDim S4x1x4 (![0, 1, 2] : Fin 3 → Fin S4x1x4.rank)
  bcast_S1x1x4_S4x1x4_0_1_2 : S1x1x4.BroadcastsInDim S4x1x4 (![0, 1, 2] : Fin 3 → Fin S4x1x4.rank)
  bcast_S4_S1x4_1 : S4.BroadcastsInDim S1x4 (![1] : Fin 1 → Fin S1x4.rank)
  shapeCasts_S4x1x4_S4x4 : S4x1x4.ShapeCasts S4x4

variable [Facts₀]

class Facts : Prop extends Facts₀ where

variable [Facts]
-- ==== Proof.PairBody.lean ====
/-
  One pair's computation, as a function of the pair's two blocks.

  For each of the four sequence pairs the kernel body does the same thing to that pair's block `u` of the first
  operand (512 positions by 64 features) and block `w` of the second, pre-transposed operand (64 features by 512
  positions): it accumulates, feature by feature, the matrix of L1 distances
  `D i j = ∑ d, |u i d - w d j|` from a zero matrix, negates it into the score matrix `s`, takes a softmax of `s`
  along each row and along each column, combines the two alignments as `a + b - a b`, and returns the
  alignment-weighted mean score times the class weights plus the class biases.

  This module writes that computation once: `featureStep` is one feature's contribution, `distAcc n` the
  accumulator after the first `n` features (by recursion on `n`), `alignHead` everything after the accumulation,
  `pairLogit` their composition. The kernel's four stores are then shown to be `pairLogit` of the four pairs'
  blocks: the unrolled body is this recursion unfolded sixty-four times, so the equation holds by unfolding.
-/
import proofs.«139066_j47072841564314_2_alg».proof.Proof.Gen.KernelIdeal.Frame

set_option maxRecDepth 65536

noncomputable section

namespace Cert.KernelIdeal.Pair

open Cert.KernelIdeal Cert.KernelIdeal.Gen Idealize.ShloMosaic Idealize.SL.Sem

variable {F : FTy → Type} [FloatOps F]

/-- Column `d` of a 512 × 64 block is a 512 × 1 block of it. -/
theorem slices_col (d : Nat) (hd : d < 64) : S512x64.Slices ![0, d] S512x1 :=
  ⟨rfl, fun a => match a with
    | ⟨0, _⟩ => by show 0 + 512 ≤ 512; omega
    | ⟨1, _⟩ => by show d + 1 ≤ 64; omega⟩

/-- Row `d` of a 64 × 512 block is a 1 × 512 block of it. -/
theorem slices_row (d : Nat) (hd : d < 64) : S64x512.Slices ![d, 0] S1x512 :=
  ⟨rfl, fun a => match a with
    | ⟨0, _⟩ => by show d + 1 ≤ 64; omega
    | ⟨1, _⟩ => by show 0 + 512 ≤ 512; omega⟩

/-- Feature `d`'s contribution added to the accumulator: column `d` of `u` laid along the rows, row `d` of `w` laid
    along the columns, the absolute value of their difference. -/
def featureStep (u : FVec F S512x64 .f32) (w : FVec F S64x512 .f32) (d : Nat) (hd : d < 64)
    (acc : FVec F S512x512 .f32) : FVec F S512x512 .f32 :=
  addf acc (absf (subf
    (broadcastTo S512x512 (shapeCast S512x1 (shapeCast S512 (extractStridedSlice S512x1 ![0, d] u (slices_col d hd))
      shapeCasts_S512x1_S512) shapeCasts_S512_S512x1) broadcasts_S512x1_S512x512)
    (broadcastTo S512x512 (shapeCast S1x512 (shapeCast S512 (extractStridedSlice S1x512 ![d, 0] w (slices_row d hd))
      shapeCasts_S1x512_S512) shapeCasts_S512_S1x512) broadcasts_S1x512_S512x512)))

/-- The distance accumulator after the first `n` features, from the zero matrix. -/
def distAcc (u : FVec F S512x64 .f32) (w : FVec F S64x512 .f32) : (n : Nat) → n ≤ 64 → FVec F S512x512 .f32
  | 0, _ => broadcast S512x512 (Scalar.ofBits .f32 0x00000000#32)
  | n + 1, h => featureStep u w n (Nat.lt_of_succ_le h) (distAcc u w n (Nat.le_of_succ_le h))

/-- The score matrix: zero minus the distances. -/
def negDist (dist : FVec F S512x512 .f32) : FVec F S512x512 .f32 :=
  subf (broadcast S512x512 (Scalar.ofBits .f32 0x00000000#32)) dist

/-- Each row's maximum, laid back along the row. -/
def rowMaxB (s : FVec F S512x512 .f32) : FVec F S512x512 .f32 :=
  broadcastTo S512x512 (shapeCast S512x1 (multiReduction .maximumf [1] S512 s 0xFF800000#32 reduces_S512x512_S512 (.inl rfl) rfl)
    shapeCasts_S512_S512x1) broadcasts_S512x1_S512x512

/-- Each row's sum, laid back along the row. -/
def rowSumB (e : FVec F S512x512 .f32) : FVec F S512x512 .f32 :=
  broadcastTo S512x512 (shapeCast S512x1 (multiReduction .add [1] S512 e 0x00000000#32 reduces_S512x512_S512 (.inl rfl) rfl)
    shapeCasts_S512_S512x1) broadcasts_S512x1_S512x512

/-- Each column's maximum, laid back along the column. -/
def colMaxB (s : FVec F S512x512 .f32) : FVec F S512x512 .f32 :=
  broadcastTo S512x512 (shapeCast S1x512 (multiReduction .maximumf [0] S512 s 0xFF800000#32 reduces_S512x512_S512_2 (.inl rfl) rfl)
    shapeCasts_S512_S1x512) broadcasts_S1x512_S512x512

/-- Each column's sum, laid back along the column. -/
def colSumB (e : FVec F S512x512 .f32) : FVec F S512x512 .f32 :=
  broadcastTo S512x512 (shapeCast S1x512 (multiReduction .add [0] S512 e 0x00000000#32 reduces_S512x512_S512_2 (.inl rfl) rfl)
    shapeCasts_S512_S1x512) broadcasts_S1x512_S512x512

/-- The sum of a whole matrix, taken along the rows and then down the column of row sums, as a 1 × 1 block. -/
def totalSum (c : FVec F S512x512 .f32) : FVec F S1x1 .f32 :=
  shapeCast S1x1 (multiReduction .add [0] S1 (shapeCast S512x1
    (multiReduction .add [1] S512 c 0x00000000#32 reduces_S512x512_S512 (.inl rfl) rfl) shapeCasts_S512_S512x1)
    0x00000000#32 reduces_S512x1_S1 (.inl rfl) rfl) shapeCasts_S1_S1x1

/-- Everything after the accumulation: the score matrix, the row and column softmaxes, the symmetric alignment
    `a + b - a b`, its weighted mean score, and the class logits. -/
def alignHead (ow : Vec F S1x4 .f32) (ob : FVec F S1x4 .f32) (dist : FVec F S512x512 .f32) : FVec F S1x4 .f32 :=
  have s : FVec F S512x512 .f32 := negDist dist
  have erow : FVec F S512x512 .f32 := exp (subf s (rowMaxB s))
  have a : FVec F S512x512 .f32 := divf erow (rowSumB erow)
  have ecol : FVec F S512x512 .f32 := exp (subf s (colMaxB s))
  have b : FVec F S512x512 .f32 := divf ecol (colSumB ecol)
  have c : FVec F S512x512 .f32 := subf (addf a b) (mulf a b)
  addf (mulf (broadcastTo S1x4 (divf (totalSum (mulf c s)) (totalSum c)) broadcasts_S1x1_S1x4) ow) ob

/-- One pair's logits from the loaded class weights and biases and the pair's two loaded blocks (each loaded with a
    leading unit axis, which is dropped first). -/
def pairLogit (ow : Vec F S1x4 .f32) (ob : Vec F S1x4 .f32) (u3 : Vec F S1x512x64 .f32) (w3 : Vec F S1x64x512 .f32) :
    FVec F S1x4 .f32 :=
  alignHead ow (shapeCast S1x4 ob shapeCasts_S1x4_S1x4)
    (distAcc (shapeCast S512x64 u3 shapeCasts_S1x512x64_S512x64) (shapeCast S64x512 w3 shapeCasts_S1x64x512_S64x512) 64 (Nat.le_refl 64))

/-- What the body leaves in the output block: the four pairs' logits, stored row by row. The unrolled body is
    `distAcc` unfolded and `alignHead` written out, pair by pair. -/
theorem out_eq_pairLogit (x0 : Vec F S4x512x64 .f32) (x1 : Vec F S4x64x512 .f32) (x2 : Vec F S1x4 .f32) (x3 : Vec F S1x4 .f32) :
    out0_4 x0 x1 x2 x3 = View.canon
      [⟨r0_12, pairLogit (View.ld x2 r0_0) (View.ld x3 r0_0) (View.ld x0 r0_10) (View.ld x1 r0_11)⟩,
       ⟨r0_9, pairLogit (View.ld x2 r0_0) (View.ld x3 r0_0) (View.ld x0 r0_7) (View.ld x1 r0_8)⟩,
       ⟨r0_6, pairLogit (View.ld x2 r0_0) (View.ld x3 r0_0) (View.ld x0 r0_4) (View.ld x1 r0_5)⟩,
       ⟨r0_3, pairLogit (View.ld x2 r0_0) (View.ld x3 r0_0) (View.ld x0 r0_1) (View.ld x1 r0_2)⟩] := rfl

end Cert.KernelIdeal.Pair

end
-- ==== Proof.AlignSpec.lean ====
/-
  The function both programs compute, on the extended reals.

  For one pair of sequences `u, v : Fin 512 → Fin 64 → EReal` the score of positions `(i, j)` is minus their L1
  distance, `score u v i j = -∑ d, |u i d - v j d|` (with `|x|` read as `max x (-x)`). From the score matrix `s`:
  the row alignment is the softmax of each row, `exp (s i j - max_j' s i j') / ∑ j', exp (…)`, the column alignment
  the softmax of each column, the symmetric alignment `a + b - a b`, and the head's value the alignment-weighted
  mean of the scores, `(∑ i j, c i j · s i j) / (∑ i j, c i j)`; the logit of class `k` is that value times the
  class's weight plus the class's bias. A maximum over an axis is the fold of `max` from `⊥`.

  Also here: the one rearrangement the two sides differ by that is not a pointwise identity — a sum over the
  positions of a 4 × 512 × 512 array that fall in one pair is the double sum over that pair's rows and columns.
-/
import Idealize.ShloMosaic.PureOps.Ideal
import Idealize.ShloMosaic.PureOps.Ideal.Laws
import Idealize.ShloMosaic.Lib.ValueIdx

noncomputable section

namespace Cert.Align

open Idealize.ShloMosaic

/-- The maximum of finitely many extended reals, from `⊥`. -/
def fmax {n : Nat} (f : Fin n → EReal) : EReal := (Finset.univ : Finset (Fin n)).fold max ⊥ f

/-- Minus the L1 distance between position `i` of `u` and position `j` of `v`. -/
def score (u v : Fin 512 → Fin 64 → EReal) (i j : Fin 512) : EReal :=
  -(∑ d : Fin 64, max (u i d - v j d) (-(u i d - v j d)))

/-- The numerator of the row softmax. -/
def rowExp (s : Fin 512 → Fin 512 → EReal) (i j : Fin 512) : EReal := Ideal.exp (s i j - fmax fun j' => s i j')
/-- The row alignment: the softmax of row `i`. -/
def rowAlign (s : Fin 512 → Fin 512 → EReal) (i j : Fin 512) : EReal := Ideal.div (rowExp s i j) (∑ j', rowExp s i j')
/-- The numerator of the column softmax. -/
def colExp (s : Fin 512 → Fin 512 → EReal) (i j : Fin 512) : EReal := Ideal.exp (s i j - fmax fun i' => s i' j)
/-- The column alignment: the softmax of column `j`. -/
def colAlign (s : Fin 512 → Fin 512 → EReal) (i j : Fin 512) : EReal := Ideal.div (colExp s i j) (∑ i', colExp s i' j)
/-- The symmetric alignment `a + b - a b`. -/
def symAlign (s : Fin 512 → Fin 512 → EReal) (i j : Fin 512) : EReal :=
  rowAlign s i j + colAlign s i j - rowAlign s i j * colAlign s i j
/-- The alignment-weighted mean score. -/
def meanScore (s : Fin 512 → Fin 512 → EReal) : EReal :=
  Ideal.div (∑ i, ∑ j, symAlign s i j * s i j) (∑ i, ∑ j, symAlign s i j)
/-- One class's logit. -/
def logit (s : Fin 512 → Fin 512 → EReal) (w b : EReal) : EReal := meanScore s * w + b

open Idealize.ShloMosaic.ValueIdx in
/-- The whole result, from the three argument arrays: pair `p` sets sequence `p` against sequence `4 + p`; class `k`
    takes weight `k` of the one row of weights and bias `k`. -/
def headOut (a0 : (⟨3, ![8, 512, 64]⟩ : Shape).Idx → EReal) (a1 : (⟨2, ![1, 4]⟩ : Shape).Idx → EReal)
    (a2 : (⟨1, ![4]⟩ : Shape).Idx → EReal) (p k : Fin 4) : EReal :=
  logit (score (fun i d => a0 (ix3 (⟨p.val, by omega⟩ : Fin 8) i d)) (fun j d => a0 (ix3 (⟨4 + p.val, by omega⟩ : Fin 8) j d)))
    (a1 (ix2 (0 : Fin 1) k)) (a2 (ix1 k))

/-- The pattern of `-∞` is `⊥`. -/
theorem ofBits_neg_inf : Ideal.ofBits .f32 0xFF800000#32 = (⊥ : EReal) := by simp [Ideal.ofBits, Ideal.ieee]

/-! ## A sum over one slab of a rank-3 array -/

open Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun q := ix3 q.1 q.2.1 q.2.2
  left_inv i := (eq_ix3 i).symm
  right_inv _ := rfl

/-- The sum over the indices of a rank-3 array that a predicate selects, when the predicate selects exactly those with
    first coordinate `p`, is the double sum over the other two coordinates. -/
theorem sum_filter_first {M : Type*} [AddCommMonoid M] {n0 n1 n2 : Nat} (f : (⟨3, ![n0, n1, n2]⟩ : Shape).Idx → M)
    (P : (⟨3, ![n0, n1, n2]⟩ : Shape).Idx → Prop) [DecidablePred P] (p : Fin n0)
    (hP : ∀ (a : Fin n0) (b : Fin n1) (c : Fin n2), P (ix3 a b c) ↔ a = p) :
    ∑ i ∈ Finset.univ.filter P, f i = ∑ b : Fin n1, ∑ c : Fin n2, f (ix3 p b c) := by
  rw [Finset.sum_filter, ← Equiv.sum_comp (idxEquiv3 (n0 := n0) (n1 := n1) (n2 := n2)).symm, Fintype.sum_prod_type]
  have hq : ∀ (a : Fin n0) (q : Fin n1 × Fin n2),
      (if P ((idxEquiv3 (n0 := n0) (n1 := n1) (n2 := n2)).symm (a, q)) then f ((idxEquiv3 (n0 := n0) (n1 := n1) (n2 := n2)).symm (a, q)) else 0)
        = if a = p then f (ix3 a q.1 q.2) else 0 := fun a q => by
    show (if P (ix3 a q.1 q.2) then f (ix3 a q.1 q.2) else 0) = _
    exact if_congr (hP a q.1 q.2) rfl rfl
  simp only [hq]
  rw [Finset.sum_eq_single p]
  · rw [Finset.sum_congr rfl (fun q _ => if_pos rfl), Fintype.sum_prod_type]
  · intro a _ ha
    exact Finset.sum_eq_zero fun q _ => if_neg ha
  · intro h
    exact absurd (Finset.mem_univ p) h

end Cert.Align

end
-- ==== Proof.PairValue.lean ====
/-
  One pair's computation read on the extended reals.

  Index by index, `distAcc n` is the sum of the first `n` features' absolute differences (induction on `n`:
  a step adds feature `n`'s term, a column of the first block against a row of the second), and the head is
  the specification's `logit` of the score matrix `-D`: each keepdims reduction followed by its broadcast is
  the reduction of that row or column read at every position of it, a maximum from the pattern of `-∞` the fold
  of `max` from `⊥`, and the total of a matrix taken along the rows first is the double sum.
-/
import proofs.«139066_j47072841564314_2_alg».proof.Proof.PairBody
import proofs.«139066_j47072841564314_2_alg».proof.Proof.AlignSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pair

open Cert.KernelIdeal Cert.KernelIdeal.Gen Idealize.ShloMosaic Idealize.ShloMosaic.ValueIdx Idealize.SL.Sem Cert.Align

/-! ## Columns, rows and their broadcasts, read at an index -/

section Layout
variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The row index `t` of a matrix reduced along its columns, with column `k` put back, is `(t, k)`. -/
theorem lift_cols {m n : Nat} (h : (⟨2, ![m, n]⟩ : Shape).Reduces [1] (⟨1, ![m]⟩ : Shape)) (t : Fin m)
    (k : Fin ((⟨2, ![m, n]⟩ : Shape).size 1)) : h.lift (ix1 t) k = ix2 t (⟨k.val, k.isLt⟩ : Fin n) := by
  funext c; apply Fin.ext
  fin_cases c <;> rfl

/-- The column index `t` of a matrix reduced along its rows, with row `k` put back, is `(k, t)`. -/
theorem lift_rows {m n : Nat} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

end Layout

/-! ## The pointwise operations the library does not name -/

theorem absf_apply {s : Shape} {φ : FTy} (a : FVec Ideal s φ) (i : s.Idx) : absf a i = max (a i) (-(a i)) := rfl
theorem exp_apply {s : Shape} {φ : FTy} (a : FVec Ideal s φ) (i : s.Idx) : exp a i = Ideal.exp (a i) := rfl

/-! ## The accumulation -/

/-- Column `d` of the first block laid along the rows, read at `(i, j)`. -/
theorem colB_apply (u : FVec Ideal S512x64 .f32) (d : Nat) (hd : d < 64) (i j : Fin 512) :
    broadcastTo S512x512 (shapeCast S512x1 (shapeCast S512 (extractStridedSlice S512x1 ![0, d] u (slices_col d hd))
      shapeCasts_S512x1_S512) shapeCasts_S512_S512x1) broadcasts_S512x1_S512x512 (ix2 i j) = u (ix2 i (⟨d, hd⟩ : Fin 64)) := by
  refine (broadcastTo_a1_ab_apply _ _ i j).trans ?_
  refine (shapeCast_a_a1_apply _ _ i 0).trans ?_
  refine (shapeCast_a1_a_apply _ _ i).trans ?_
  exact slice2_axis1_apply d u _ i (0 : Fin 1) (⟨d, hd⟩ : Fin 64) rfl

/-- Row `d` of the second block laid along the columns, read at `(i, j)`. -/
theorem rowB_apply (w : FVec Ideal S64x512 .f32) (d : Nat) (hd : d < 64) (i j : Fin 512) :
    broadcastTo S512x512 (shapeCast S1x512 (shapeCast S512 (extractStridedSlice S1x512 ![d, 0] w (slices_row d hd))
      shapeCasts_S1x512_S512) shapeCasts_S512_S1x512) broadcasts_S1x512_S512x512 (ix2 i j) = w (ix2 (⟨d, hd⟩ : Fin 64) j) := by
  refine (broadcastTo_1b_ab_apply _ _ i j).trans ?_
  refine (shapeCast_a_1a_apply _ _ 0 j).trans ?_
  refine (shapeCast_1a_a_apply _ _ j).trans ?_
  exact slice2_axis0_apply d w _ (0 : Fin 1) j (⟨d, hd⟩ : Fin 64) rfl

/-- One step adds feature `d`'s absolute difference. -/
theorem featureStep_apply (u : FVec Ideal S512x64 .f32) (w : FVec Ideal S64x512 .f32) (d : Nat) (hd : d < 64)
    (acc : FVec Ideal S512x512 .f32) (i j : Fin 512) :
    featureStep (F := Ideal) u w d hd acc (ix2 i j)
      = acc (ix2 i j) + max (u (ix2 i (⟨d, hd⟩ : Fin 64)) - w (ix2 (⟨d, hd⟩ : Fin 64) j))
          (-(u (ix2 i (⟨d, hd⟩ : Fin 64)) - w (ix2 (⟨d, hd⟩ : Fin 64) j))) := by
  unfold featureStep
  rw [addf_apply, absf_apply, subf_apply, colB_apply, rowB_apply]

/-- After `n` features the accumulator holds the sum of their absolute differences. -/
theorem distAcc_apply (u : FVec Ideal S512x64 .f32) (w : FVec Ideal S64x512 .f32) :
    ∀ (n : Nat) (hn : n ≤ 64) (i j : Fin 512), distAcc (F := Ideal) u w n hn (ix2 i j)
      = ∑ d : Fin n, max (u (ix2 i (⟨d.val, Nat.lt_of_lt_of_le d.isLt hn⟩ : Fin 64)) - w (ix2 (⟨d.val, Nat.lt_of_lt_of_le d.isLt hn⟩ : Fin 64) j))
          (-(u (ix2 i (⟨d.val, Nat.lt_of_lt_of_le d.isLt hn⟩ : Fin 64)) - w (ix2 (⟨d.val, Nat.lt_of_lt_of_le d.isLt hn⟩ : Fin 64) j)))
  | 0, _, i, j => by
    show Ideal.ofBits .f32 0x00000000#32 = _
    rw [Ideal.ofBits_zero_f32, Finset.univ_eq_empty, Finset.sum_empty]
  | n + 1, hn, i, j => by
    show featureStep (F := Ideal) u w n (Nat.lt_of_succ_le hn) (distAcc u w n (Nat.le_of_succ_le hn)) (ix2 i j) = _
    rw [featureStep_apply, distAcc_apply u w n (Nat.le_of_succ_le hn) i j, Fin.sum_univ_castSucc]
    rfl

/-! ## The head -/

theorem negDist_apply (dist : FVec Ideal S512x512 .f32) (i j : Fin 512) :
    negDist (F := Ideal) dist (ix2 i j) = -(dist (ix2 i j)) := by
  show Ideal.ofBits .f32 0x00000000#32 - (dist (ix2 i j) : EReal) = _
  rw [Ideal.ofBits_zero_f32, zero_sub]

theorem rowMaxB_apply (s : FVec Ideal S512x512 .f32) (i j : Fin 512) :
    rowMaxB (F := Ideal) s (ix2 i j) = fmax fun j' : Fin 512 => s (ix2 i j') := by
  unfold rowMaxB
  refine (broadcastTo_a1_ab_apply _ _ i j).trans ?_
  refine (shapeCast_a_a1_apply _ _ i 0).trans ?_
  refine (Ideal.multiReduction_maximumf_single s _ reduces_S512x512_S512 _ _ (ix1 i)).trans ?_
  have hf : (s ∘ reduces_S512x512_S512.lift (ix1 i)) = fun j' : Fin 512 => s (ix2 i j') :=
    funext fun k => congrArg s (lift_cols reduces_S512x512_S512 i k)
  show Finset.fold max (Ideal.ofBits .f32 0xFF800000#32) (s ∘ reduces_S512x512_S512.lift (ix1 i)) (Finset.univ : Finset (Fin 512)) = _
  rw [hf, ofBits_neg_inf]
  rfl

theorem colMaxB_apply (s : FVec Ideal S512x512 .f32) (i j : Fin 512) :
    colMaxB (F := Ideal) s (ix2 i j) = fmax fun i' : Fin 512 => s (ix2 i' j) := by
  unfold colMaxB
  refine (broadcastTo_1b_ab_apply _ _ i j).trans ?_
  refine (shapeCast_a_1a_apply _ _ 0 j).trans ?_
  refine (Ideal.multiReduction_maximumf_single s _ reduces_S512x512_S512_2 _ _ (ix1 j)).trans ?_
  have hf : (s ∘ reduces_S512x512_S512_2.lift (ix1 j)) = fun i' : Fin 512 => s (ix2 i' j) :=
    funext fun k => congrArg s (lift_rows reduces_S512x512_S512_2 j k)
  show Finset.fold max (Ideal.ofBits .f32 0xFF800000#32) (s ∘ reduces_S512x512_S512_2.lift (ix1 j)) (Finset.univ : Finset (Fin 512)) = _
  rw [hf, ofBits_neg_inf]
  rfl

theorem rowSumB_apply (e : FVec Ideal S512x512 .f32) (i j : Fin 512) :
    rowSumB (F := Ideal) e (ix2 i j) = ∑ j' : Fin 512, e (ix2 i j') := by
  unfold rowSumB
  refine (broadcastTo_a1_ab_apply _ _ i j).trans ?_
  refine (shapeCast_a_a1_apply _ _ i 0).trans ?_
  refine (Ideal.multiReduction_add_single e _ reduces_S512x512_S512 _ _ (ix1 i)).trans ?_
  exact Finset.sum_congr rfl fun k _ => congrArg e (lift_cols reduces_S512x512_S512 i k)

theorem colSumB_apply (e : FVec Ideal S512x512 .f32) (i j : Fin 512) :
    colSumB (F := Ideal) e (ix2 i j) = ∑ i' : Fin 512, e (ix2 i' j) := by
  unfold colSumB
  refine (broadcastTo_1b_ab_apply _ _ i j).trans ?_
  refine (shapeCast_a_1a_apply _ _ 0 j).trans ?_
  refine (Ideal.multiReduction_add_single e _ reduces_S512x512_S512_2 _ _ (ix1 j)).trans ?_
  exact Finset.sum_congr rfl fun k _ => congrArg e (lift_rows reduces_S512x512_S512_2 j k)

theorem totalSum_apply (c : FVec Ideal S512x512 .f32) :
    totalSum (F := Ideal) c (ix2 (0 : Fin 1) (0 : Fin 1)) = ∑ i : Fin 512, ∑ j : Fin 512, c (ix2 i j) := by
  unfold totalSum
  refine (shapeCast_a_1a_apply _ _ 0 0).trans ?_
  refine (Ideal.multiReduction_add_single _ _ reduces_S512x1_S1 _ _ (ix1 (0 : Fin 1))).trans ?_
  refine Finset.sum_congr rfl fun k _ => ?_
  rw [lift_rows reduces_S512x1_S1 (0 : Fin 1) k]
  refine (shapeCast_a_a1_apply _ _ _ 0).trans ?_
  refine (Ideal.multiReduction_add_single c _ reduces_S512x512_S512 _ _ (ix1 _)).trans ?_
  exact Finset.sum_congr rfl fun k' _ => congrArg c (lift_cols reduces_S512x512_S512 _ k')

/-- A `[1, 1]` block broadcast to `[1, 4]` reads its one entry everywhere. -/
theorem bcast_one_apply (x : FVec Ideal S1x1 .f32) (k : Fin 4) :
    broadcastTo S1x4 x broadcasts_S1x1_S1x4 (ix2 (0 : Fin 1) k) = x (ix2 (0 : Fin 1) (0 : Fin 1)) :=
  broadcastTo_a1_ab_apply x broadcasts_S1x1_S1x4 (0 : Fin 1) k

/-- The head is the specification's logit of the score matrix `-D`. -/
theorem alignHead_apply (ow ob : FVec Ideal S1x4 .f32) (dist : FVec Ideal S512x512 .f32) (k : Fin 4) :
    alignHead (F := Ideal) ow ob dist (ix2 (0 : Fin 1) k)
      = logit (fun i j => -(dist (ix2 i j))) (ow (ix2 (0 : Fin 1) k)) (ob (ix2 (0 : Fin 1) k)) := by
  simp only [alignHead, logit, meanScore, symAlign, rowAlign, colAlign, rowExp, colExp, addf_apply, mulf_apply, subf_apply,
    divf_apply, exp_apply, bcast_one_apply, totalSum_apply, rowMaxB_apply, rowSumB_apply, colMaxB_apply, colSumB_apply,
    negDist_apply]

/-- One pair's logits are the specification's, of the pair's two blocks read without their unit axis. -/
theorem pairLogit_apply (ow ob : Vec Ideal S1x4 .f32) (u3 : Vec Ideal S1x512x64 .f32) (w3 : Vec Ideal S1x64x512 .f32) (k : Fin 4) :
    pairLogit (F := Ideal) ow ob u3 w3 (ix2 (0 : Fin 1) k)
      = logit (score (fun i d => u3 (ix3 (0 : Fin 1) i d)) (fun j d => w3 (ix3 (0 : Fin 1) d j)))
          (ow (ix2 (0 : Fin 1) k)) (ob (ix2 (0 : Fin 1) k)) := by
  unfold pairLogit
  rw [alignHead_apply, shapeCast_self]
  congr 1
  funext i j
  rw [distAcc_apply]
  unfold score
  congr 1
  refine Finset.sum_congr rfl fun d _ => ?_
  rw [shapeCast_1ab_ab_apply, shapeCast_1ab_ab_apply]

end Cert.KernelIdeal.Pair

end
-- ==== Proof.KernelArray.lean ====
/-
  The kernel's result array.

  The grid has one point, and at it every window's block is its whole array. The first window's array is the first
  four sequences of the argument, the second's the last four with positions and features exchanged, the third's
  the row of class weights, the fourth's the biases as one row. The four stores tile the 4 × 4 output block by rows,
  row `p` holding pair `p`'s logits, so the block — and, written back at the one point, the result array — is the
  specification's `headOut` of the three arguments.
-/
import proofs.«139066_j47072841564314_2_alg».proof.Proof.PairValue
import proofs.«139066_j47072841564314_2_alg».proof.Proof.Gen.KernelIdeal.Value
import Idealize.ShloMosaic.Lib.StableHlo.Run

set_option maxRecDepth 16384

noncomputable section

namespace Cert.KernelIdeal.Pair

open Cert.KernelIdeal Cert.KernelIdeal.Gen Idealize.ShloMosaic Idealize.ShloMosaic.TcCoe Idealize.ShloMosaic.ValueIdx Idealize.SL.Sem Cert.Align
open Idealize.ShloMosaic.Pipeline (Dat)

/-! ## The output block from the input blocks -/

/-- Pair `p`'s logit of class `k`, from the four input blocks. -/
def pairVal (x0 : Vec Ideal S4x512x64 .f32) (x1 : Vec Ideal S4x64x512 .f32) (x2 x3 : Vec Ideal S1x4 .f32) (p k : Fin 4) : EReal :=
  logit (score (fun i d => x0 (ix3 p i d)) (fun j d => x1 (ix3 p d j))) (x2 (ix2 (0 : Fin 1) k)) (x3 (ix2 (0 : Fin 1) k))

/-- The output block as one function of its index. -/
def outFn (x0 : Vec Ideal S4x512x64 .f32) (x1 : Vec Ideal S4x64x512 .f32) (x2 x3 : Vec Ideal S1x4 .f32) : Vec Ideal S4x4 .f32 :=
  fun y => pairVal x0 x1 x2 x3 (⟨(y 0).val, (y 0).isLt⟩ : Fin 4) (⟨(y 1).val, (y 1).isLt⟩ : Fin 4)

theorem hz2 : (![0, 0] : Fin 2 → Nat) = fun _ => 0 := funext fun a => by fin_cases a <;> rfl

/-- A load of sequence `p`'s block of the first operand reads that sequence. -/
theorem ld_seq (x0 : Vec Ideal S4x512x64 .f32) (p : Nat) (hp : p < 4)
    (inb : ∀ a, (![p, 0, 0] : Fin 3 → Nat) a + S1x512x64.size a ≤ S4x512x64.size a) (i : Fin 512) (d : Fin 64) :
    View.ld x0 (Rect.unit (s := S4x512x64) ![p, 0, 0] S1x512x64.size inb) (ix3 (0 : Fin 1) i d) = x0 (ix3 (⟨p, hp⟩ : Fin 4) i d) := by
  show x0 ((Rect.unit (s := S4x512x64) ![p, 0, 0] S1x512x64.size inb).emb (ix3 (0 : Fin 1) i d)) = _
  refine congrArg x0 (funext fun a => Fin.ext ?_)
  match a with
  | ⟨0, _⟩ => show p + 1 * 0 = p; omega
  | ⟨1, _⟩ => show 0 + 1 * i.val = i.val; omega
  | ⟨2, _⟩ => show 0 + 1 * d.val = d.val; omega

/-- A load of sequence `p`'s block of the second, transposed operand reads that sequence. -/
theorem ld_seqT (x1 : Vec Ideal S4x64x512 .f32) (p : Nat) (hp : p < 4)
    (inb : ∀ a, (![p, 0, 0] : Fin 3 → Nat) a + S1x64x512.size a ≤ S4x64x512.size a) (d : Fin 64) (j : Fin 512) :
    View.ld x1 (Rect.unit (s := S4x64x512) ![p, 0, 0] S1x64x512.size inb) (ix3 (0 : Fin 1) d j) = x1 (ix3 (⟨p, hp⟩ : Fin 4) d j) := by
  show x1 ((Rect.unit (s := S4x64x512) ![p, 0, 0] S1x64x512.size inb).emb (ix3 (0 : Fin 1) d j)) = _
  refine congrArg x1 (funext fun a => Fin.ext ?_)
  match a with
  | ⟨0, _⟩ => show p + 1 * 0 = p; omega
  | ⟨1, _⟩ => show 0 + 1 * d.val = d.val; omega
  | ⟨2, _⟩ => show 0 + 1 * j.val = j.val; omega

/-- The store of pair `p` holds, at each index of its row, the block function at the index it lands on. -/
theorem piece_eq (x0 : Vec Ideal S4x512x64 .f32) (x1 : Vec Ideal S4x64x512 .f32) (x2 x3 : Vec Ideal S1x4 .f32) (p : Nat) (hp : p < 4)
    (inb0 : ∀ a, (![p, 0, 0] : Fin 3 → Nat) a + S1x512x64.size a ≤ S4x512x64.size a)
    (inb1 : ∀ a, (![p, 0, 0] : Fin 3 → Nat) a + S1x64x512.size a ≤ S4x64x512.size a)
    (inb4 : ∀ a, (![p, 0] : Fin 2 → Nat) a + S1x4.size a ≤ S4x4.size a) (x : S1x4.Idx) :
    pairLogit (F := Ideal) (View.ld x2 r0_0) (View.ld x3 r0_0)
        (View.ld x0 (Rect.unit (s := S4x512x64) ![p, 0, 0] S1x512x64.size inb0))
        (View.ld x1 (Rect.unit (s := S4x64x512) ![p, 0, 0] S1x64x512.size inb1)) x
      = outFn x0 x1 x2 x3 ((Rect.unit (s := S4x4) ![p, 0] S1x4.size inb4).emb x) := by
  obtain ⟨k, rfl⟩ : ∃ k : Fin 4, x = ix2 (0 : Fin 1) k :=
    ⟨⟨(x 1).val, (x 1).isLt⟩, funext fun a => match a with
      | ⟨0, _⟩ => Fin.ext (by have h : (x 0).val < 1 := (x 0).isLt; show (x 0).val = 0; omega)
      | ⟨1, _⟩ => rfl⟩
  rw [pairLogit_apply]
  have hE0 : (⟨((Rect.unit (s := S4x4) ![p, 0] S1x4.size inb4).emb (ix2 (0 : Fin 1) k) 0).val,
      ((Rect.unit (s := S4x4) ![p, 0] S1x4.size inb4).emb (ix2 (0 : Fin 1) k) 0).isLt⟩ : Fin 4) = ⟨p, hp⟩ :=
    Fin.ext (by show p + 1 * 0 = p; omega)
  have hE1 : (⟨((Rect.unit (s := S4x4) ![p, 0] S1x4.size inb4).emb (ix2 (0 : Fin 1) k) 1).val,
      ((Rect.unit (s := S4x4) ![p, 0] S1x4.size inb4).emb (ix2 (0 : Fin 1) k) 1).isLt⟩ : Fin 4) = k :=
    Fin.ext (by show 0 + 1 * k.val = k.val; omega)
  unfold outFn pairVal
  rw [hE0, hE1]
  simp only [ld_seq x0 p hp, ld_seqT x1 p hp]
  rw [show View.ld x2 r0_0 = x2 from View.ld_unit_zero hz2 inb_S1x4_S1x4_0_0 x2,
    show View.ld x3 r0_0 = x3 from View.ld_unit_zero hz2 inb_S1x4_S1x4_0_0 x3]

/-- The output block after the body is `outFn` of the input blocks. -/
theorem out_eq_outFn (x0 : Vec Ideal S4x512x64 .f32) (x1 : Vec Ideal S4x64x512 .f32) (x2 x3 : Vec Ideal S1x4 .f32) :
    out0_4 (F := Ideal) x0 x1 x2 x3 = outFn x0 x1 x2 x3 := by
  rw [out_eq_pairLogit]
  funext y
  refine View.canon_apply_of_pieces (outFn x0 x1 x2 x3) _ ?_ y (cover0_4 _ _ _ _ y)
  intro q hq x
  simp only [List.mem_cons, List.mem_nil_iff, or_false] at hq
  rcases hq with rfl | rfl | rfl | rfl
  · exact piece_eq x0 x1 x2 x3 3 (by decide) inb_S4x512x64_S1x512x64_3_0_0 inb_S4x64x512_S1x64x512_3_0_0 inb_S4x4_S1x4_3_0 x
  · exact piece_eq x0 x1 x2 x3 2 (by decide) inb_S4x512x64_S1x512x64_2_0_0 inb_S4x64x512_S1x64x512_2_0_0 inb_S4x4_S1x4_2_0 x
  · exact piece_eq x0 x1 x2 x3 1 (by decide) inb_S4x512x64_S1x512x64_1_0_0 inb_S4x64x512_S1x64x512_1_0_0 inb_S4x4_S1x4_1_0 x
  · exact piece_eq x0 x1 x2 x3 0 (by decide) inb_S4x512x64_S1x512x64_0_0_0 inb_S4x64x512_S1x64x512_0_0_0 inb_S4x4_S1x4_0_0 x

/-! ## The blocks at the one grid point, from the arguments -/

section Arrays

variable (m : (ℓ : Loc nD τ sig) → Buf (Elt Ideal) ℓ) (ρ : Dev nD → PrngReg)

/-- At the one grid point every window's block index is zero on every axis. -/
theorem idx_zero : ∀ t : Fin cfg0.N,
    (win0_0.index t (0 : Fin 3) = 0 ∧ win0_0.index t (1 : Fin 3) = 0 ∧ win0_0.index t (2 : Fin 3) = 0)
    ∧ (win0_1.index t (0 : Fin 3) = 0 ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

/-- The first window's array is the first four sequences of the argument. -/
theorem V_first (c : Dev nD) : (V m c main_v0 : S4x512x64.Idx → EReal)
    = extractStridedSlice S4x512x64 ![0, 0, 0] (m ((c : Thread nD τ).loc main_arg0)) slices_S8x512x64_S4x512x64_0_0_0 := by
  dsimp only [V, hostOps0]; after_results <;> rfl

/-- The second window's array is the last four sequences, positions and features exchanged. -/
theorem V_second (c : Dev nD) : (V m c main_v2 : S4x64x512.Idx → EReal)
    = transpose S4x64x512 [0, 2, 1] (extractStridedSlice S4x512x64 ![4, 0, 0] (m ((c : Thread nD τ).loc main_arg0))
        slices_S8x512x64_S4x512x64_4_0_0) transposes_S4x512x64_S4x64x512_0_2_1 := by
  dsimp only [V, hostOps0]; after_results <;> rfl

/-- The fourth window's array is the biases as one row. -/
theorem V_bias (c : Dev nD) : (V m c main_v3 : S1x4.Idx → EReal)
    = shapeCast S1x4 (m ((c : Thread nD τ).loc main_arg2)) shapeCasts_S4_S1x4 := by
  dsimp only [V, hostOps0]; after_results <;> rfl

theorem iblk0_apply (c : Dev nD) (t : Fin cfg0.N) (p : Fin 4) (i : Fin 512) (d : Fin 64) :
    (iblk m c 0 t : Vec Ideal S4x512x64 .f32) (ix3 p i d)
      = (m ((c : Thread nD τ).loc main_arg0) : S8x512x64.Idx → EReal) (ix3 (⟨p.val, by omega⟩ : Fin 8) i d) := by
  obtain ⟨⟨e0, e1, e2⟩, -⟩ := idx_zero t
  unfold iblk
  rw [View.read_apply]
  show V m c main_v0 _ = _
  refine (congrFun (V_first m c) _).trans ?_
  refine extractStridedSlice_apply _ _ _ _ (ix3 (⟨p.val, by omega⟩ : Fin 8) i d) fun a => ?_
  match a with
  | ⟨0, _⟩ => show p.val = 0 + (win0_0.index t (0 : Fin 3) * 4 + 1 * p.val); omega
  | ⟨1, _⟩ => show i.val = 0 + (win0_0.index t (1 : Fin 3) * 512 + 1 * i.val); omega
  | ⟨2, _⟩ => show d.val = 0 + (win0_0.index t (2 : Fin 3) * 64 + 1 * d.val); omega

theorem iblk1_apply (c : Dev nD) (t : Fin cfg0.N) (p : Fin 4) (d : Fin 64) (j : Fin 512) :
    (iblk m c 1 t : Vec Ideal S4x64x512 .f32) (ix3 p d j)
      = (m ((c : Thread nD τ).loc main_arg0) : S8x512x64.Idx → EReal) (ix3 (⟨4 + p.val, by omega⟩ : Fin 8) j d) := by
  obtain ⟨-, ⟨e0, e1, e2⟩, -⟩ := idx_zero t
  unfold iblk
  rw [View.read_apply]
  show V m c main_v2 _ = _
  have he : ((cfg0.win 1).blk t).view.emb (ix3 p d j) = (ix3 p d j : S4x64x512.Idx) := funext fun a => Fin.ext (by
    match a with
    | ⟨0, _⟩ => show win0_1.index t (0 : Fin 3) * 4 + 1 * p.val = p.val; omega
    | ⟨1, _⟩ => show win0_1.index t (1 : Fin 3) * 64 + 1 * d.val = d.val; omega
    | ⟨2, _⟩ => show win0_1.index t (2 : Fin 3) * 512 + 1 * j.val = j.val; omega)
  rw [he]
  refine (congrFun (V_second m c) _).trans ?_
  refine (transpose_ix3_021_apply _ _ p d j).trans ?_
  refine extractStridedSlice_apply _ _ _ _ (ix3 (⟨4 + p.val, by omega⟩ : Fin 8) j d) fun a => ?_
  match a with
  | ⟨0, _⟩ => show 4 + p.val = 4 + p.val; rfl
  | ⟨1, _⟩ => show j.val = 0 + j.val; omega
  | ⟨2, _⟩ => show d.val = 0 + d.val; omega

theorem iblk2_apply (c : Dev nD) (t : Fin cfg0.N) (k : Fin 4) :
    (iblk m c 2 t : Vec Ideal S1x4 .f32) (ix2 (0 : Fin 1) k)
      = (m ((c : Thread nD τ).loc main_arg1) : S1x4.Idx → EReal) (ix2 (0 : Fin 1) k) := by
  obtain ⟨-, -, ⟨e0, e1⟩, -⟩ := idx_zero t
  unfold iblk
  rw [View.read_apply]
  show V m c main_arg1 _ = _
  rw [V_main_arg1]
  refine congrArg _ (funext fun a => Fin.ext ?_)
  match a with
  | ⟨0, _⟩ => show win0_2.index t (0 : Fin 2) * 1 + 1 * 0 = 0; omega
  | ⟨1, _⟩ => show win0_2.index t (1 : Fin 2) * 4 + 1 * k.val = k.val; omega

theorem iblk3_apply (c : Dev nD) (t : Fin cfg0.N) (k : Fin 4) :
    (iblk m c 3 t : Vec Ideal S1x4 .f32) (ix2 (0 : Fin 1) k)
      = (m ((c : Thread nD τ).loc main_arg2) : S4.Idx → EReal) (ix1 k) := by
  obtain ⟨-, -, -, ⟨e0, e1⟩, -⟩ := idx_zero t
  unfold iblk
  rw [View.read_apply]
  show V m c main_v3 _ = _
  have he : ((cfg0.win 3).blk t).view.emb (ix2 (0 : Fin 1) k) = (ix2 (0 : Fin 1) k : S1x4.Idx) := funext fun a => Fin.ext (by
    match a with
    | ⟨0, _⟩ => show win0_3.index t (0 : Fin 2) * 1 + 1 * 0 = 0; omega
    | ⟨1, _⟩ => show win0_3.index t (1 : Fin 2) * 4 + 1 * k.val = k.val; omega)
  rw [he]
  refine (congrFun (V_bias m c) _).trans ?_
  exact shapeCast_a_1a_apply _ _ (0 : Fin 1) k

/-! ## The result array -/

/-- The result array's contents after the run, from the three arguments. -/
def result (c : Dev nD) : Buf (Elt Ideal) ((c : Thread nD τ).loc main_v4) :=
  fun y : S4x4.Idx => headOut (m ((c : Thread nD τ).loc main_arg0)) (m ((c : Thread nD τ).loc main_arg1))
    (m ((c : Thread nD τ).loc main_arg2)) (⟨(y 0).val, (y 0).isLt⟩ : Fin 4) (⟨(y 1).val, (y 1).isLt⟩ : Fin 4)

/-- What the one point writes back is the block of `result`. -/
theorem flushed_eq (c : Dev nD) (t : Fin cfg0.N) :
    (dats m 0 c).flushed 4 t = ((cfg0.win 4).blk t).view.read (Elt Ideal) (result m c) := by
  rw [Cert.KernelIdeal.Value.flushed4 m c t, out_eq_outFn]
  obtain ⟨-, -, -, -, ⟨e0, e1⟩⟩ := idx_zero t
  funext y
  have he : ((cfg0.win 4).blk t).view.emb y = (y : S4x4.Idx) := funext fun a => Fin.ext (by
    match a with
    | ⟨0, _⟩ => show win0_4.index t (0 : Fin 2) * 4 + 1 * (y 0).val = (y 0).val; omega
    | ⟨1, _⟩ => show win0_4.index t (1 : Fin 2) * 4 + 1 * (y 1).val = (y 1).val; omega)
  show outFn (iblk m c 0 t) (iblk m c 1 t) (iblk m c 2 t) (iblk m c 3 t) y = result m c (((cfg0.win 4).blk t).view.emb y)
  rw [he]
  unfold outFn pairVal result headOut
  simp only [iblk0_apply m c t, iblk1_apply m c t, iblk2_apply m c t, iblk3_apply m c t]

/-- The result array ends holding `result`: the one point's block is the whole array. -/
theorem final (c : Dev nD) : (dats m 0 c).arrAt 4 cfg0.N = result m c :=
  (dats m 0 c).arrAt_eq_of_cover 4 (result m c) (fun t _ => flushed_eq m c t) fun i => by
    have hN : 0 < cfg0.N := by rw [show cfg0.N = 1 from N_0]; decide
    obtain ⟨-, -, -, -, ⟨e0, e1⟩⟩ := idx_zero ⟨0, hN⟩
    refine ⟨⟨0, hN⟩, flush0_4 _, ?_⟩
    show i ∈ ((View.whole main_v4).slice (win0_4.rect ⟨0, hN⟩)).set
    rw [View.set_slice_whole, Rect.mem_set_unit]
    intro a
    have h0 : (i 0 : Nat) < 4 := (i 0).isLt
    have h1 : (i 1 : Nat) < 4 := (i 1).isLt
    match a with
    | ⟨0, _⟩ => show win0_4.index ⟨0, hN⟩ (0 : Fin 2) * 4 ≤ (i 0 : Nat) ∧ (i 0 : Nat) < win0_4.index ⟨0, hN⟩ (0 : Fin 2) * 4 + 4; omega
    | ⟨1, _⟩ => show win0_4.index ⟨0, hN⟩ (1 : Fin 2) * 4 ≤ (i 1 : Nat) ∧ (i 1 : Nat) < win0_4.index ⟨0, hN⟩ (1 : Fin 2) * 4 + 4; omega

/-- The run, read: the result array at `result`, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Arrays

end Cert.KernelIdeal.Pair

end
-- ==== Proof.RefValue.lean ====
/-
  The reference's result array.

  The reference works on all four pairs at once, as rank-3 and rank-4 arrays with the pair on the first axis. Read at
  pair `p`, its score array is the specification's `score` of sequence `p` against sequence `4 + p` (the sum over
  the feature axis from the initial value zero); each keepdims maximum, taken from `-∞` and then once more against
  `-∞`, is the fold of `max` from `⊥`; the softmaxes and the symmetric alignment follow operation by operation; and
  the two sums over both position axes, which select the indices of the 4 × 512 × 512 array lying in pair `p`, are the
  double sums over that pair's rows and columns. So the result array is the specification's `headOut`.
-/
import proofs.«139066_j47072841564314_2_alg».proof.Proof.Gen.ReferenceIdeal.Read
import proofs.«139066_j47072841564314_2_alg».proof.Proof.AlignSpec
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read Idealize.ShloMosaic Idealize.ShloMosaic.ValueIdx Idealize.SL.Sem Cert.Align

/-- The type of the first argument's contents. -/
abbrev Arg0 : Type := (⟨S8x512x64, .f32⟩ : BufTy).Contents (Elt Ideal)

/-- Pair `p`'s score matrix, from the argument. -/
def sR (x0 : Arg0) (p : Fin 4) : Fin 512 → Fin 512 → EReal :=
  score (fun i d => x0 (ix3 (⟨p.val, by omega⟩ : Fin 8) i d)) (fun j d => x0 (ix3 (⟨4 + p.val, by omega⟩ : Fin 8) j d))

/-! ## The scores -/

theorem v9_at (x0 : Arg0) (p : Fin 4) (i j : Fin 512) : val_main_v9 (F := Ideal) x0 (ix3 p i j) = sR x0 p i j := by
  have hL : ∀ k : Fin 64, idx_main_v0 (idx_main_v2 (idx_main_v4 (idx_main_v8 (ix3 p i j) k))) = ix3 (⟨p.val, by omega⟩ : Fin 8) i k :=
    fun k => funext fun a => Fin.ext (by match a with | ⟨0, _⟩ => rfl | ⟨1, _⟩ => rfl | ⟨2, _⟩ => rfl)
  have hR : ∀ k : Fin 64, idx_main_v1 (idx_main_v3 (idx_main_v5 (idx_main_v8 (ix3 p i j) k))) = ix3 (⟨4 + p.val, by omega⟩ : Fin 8) j k :=
    fun k => funext fun a => Fin.ext (by match a with | ⟨0, _⟩ => rfl | ⟨1, _⟩ => rfl | ⟨2, _⟩ => rfl)
  rw [val_main_v9_apply, val_main_v8_apply, val_main_cst_apply]
  simp only [val_main_v7_apply, val_main_v6_apply, val_main_v4_apply, val_main_v2_apply, val_main_v0_apply,
    val_main_v5_apply, val_main_v3_apply, val_main_v1_apply, hL, hR]
  simp only [Ideal.hostNegf_def, Ideal.negf_def, Ideal.hostAbsf_def, Ideal.absf_def, Ideal.subf_def, Ideal.ofBits_def,
    Ideal.ofBits_zero_f32, zero_add]
  rfl

/-! ## The maxima -/

theorem lift_last (h : S4x512x512.Reduces [2] S4x512) (p : Fin 4) (i : Fin 512) (k : Fin (S4x512x512.size 2)) :
    h.lift (ix2 p i) k = ix3 p i (⟨k.val, k.isLt⟩ : Fin 512) := by
  funext c; apply Fin.ext
  fin_cases c <;> rfl

theorem lift_mid (h : S4x512x512.Reduces [1] S4x512) (p : Fin 4) (j : Fin 512) (k : Fin (S4x512x512.size 1)) :
    h.lift (ix2 p j) k = ix3 p (⟨k.val, k.isLt⟩ : Fin 512) j := by
  funext c; apply Fin.ext
  fin_cases c <;> rfl

theorem v12_at (x0 : Arg0) (p : Fin 4) (i : Fin 512) :
    val_main_v12 (F := Ideal) x0 (ix2 p i) = fmax fun j : Fin 512 => sR x0 p i j := by
  have h : S4x512x512.Reduces [2] S4x512 := by decide
  rw [val_main_v12_apply, val_main_v11_apply, val_main_cst_1_apply]
  unfold val_main_v10
  rw [Host.reduce_eq_fold_single FloatOps.maximumf _ _ reducesTo_S4x512x512_S4x512_d2 h h_S_, val_main_cst_0_apply]
  have hf : (val_main_v9 (F := Ideal) x0 ∘ h.lift (ix2 p i)) = fun j : Fin 512 => sR x0 p i j :=
    funext fun k => (congrArg (val_main_v9 (F := Ideal) x0) (lift_last h p i k)).trans (v9_at x0 p i _)
  show max (Ideal.ofBits .f32 0xFF800000#32) (Finset.fold max (Ideal.ofBits .f32 0xFF800000#32)
    (val_main_v9 (F := Ideal) x0 ∘ h.lift (ix2 p i)) (Finset.univ : Finset (Fin 512))) = _
  rw [hf, ofBits_neg_inf, max_eq_right bot_le]
  rfl

theorem v23_at (x0 : Arg0) (p : Fin 4) (j : Fin 512) :
    val_main_v23 (F := Ideal) x0 (ix2 p j) = fmax fun i : Fin 512 => sR x0 p i j := by
  have h : S4x512x512.Reduces [1] S4x512 := by decide
  rw [val_main_v23_apply, val_main_v22_apply, val_main_cst_4_apply]
  unfold val_main_v21
  rw [Host.reduce_eq_fold_single FloatOps.maximumf _ _ reducesTo_S4x512x512_S4x512_d1 h h_S_, val_main_cst_3_apply]
  have hf : (val_main_v9 (F := Ideal) x0 ∘ h.lift (ix2 p j)) = fun i : Fin 512 => sR x0 p i j :=
    funext fun k => (congrArg (val_main_v9 (F := Ideal) x0) (lift_mid h p j k)).trans (v9_at x0 p _ j)
  show max (Ideal.ofBits .f32 0xFF800000#32) (Finset.fold max (Ideal.ofBits .f32 0xFF800000#32)
    (val_main_v9 (F := Ideal) x0 ∘ h.lift (ix2 p j)) (Finset.univ : Finset (Fin 512))) = _
  rw [hf, ofBits_neg_inf, max_eq_right bot_le]
  rfl

/-! ## The two softmaxes -/

theorem v16_at (x0 : Arg0) (p : Fin 4) (i j : Fin 512) : val_main_v16 (F := Ideal) x0 (ix3 p i j) = rowExp (sR x0 p) i j := by
  have hi : idx_main_v13 (idx_main_v14 (ix3 p i j)) = ix2 p i :=
    funext fun a => Fin.ext (by match a with | ⟨0, _⟩ => rfl | ⟨1, _⟩ => rfl)
  rw [val_main_v16_apply, val_main_v15_apply, val_main_v14_apply, val_main_v13_apply, hi, v12_at, v9_at]
  rfl

theorem v17_at (x0 : Arg0) (p : Fin 4) (i : Fin 512) :
    val_main_v17 (F := Ideal) x0 (ix2 p i) = ∑ j : Fin 512, rowExp (sR x0 p) i j := by
  have hi : ∀ k : Fin 512, idx_main_v17 (ix2 p i) k = ix3 p i k :=
    fun k => funext fun a => Fin.ext (by match a with | ⟨0, _⟩ => rfl | ⟨1, _⟩ => rfl | ⟨2, _⟩ => rfl)
  rw [val_main_v17_apply, val_main_cst_2_apply]
  simp only [hi, v16_at, Ideal.ofBits_def, Ideal.ofBits_zero_f32, zero_add]

theorem v20_at (x0 : Arg0) (p : Fin 4) (i j : Fin 512) : val_main_v20 (F := Ideal) x0 (ix3 p i j) = rowAlign (sR x0 p) i j := by
  have hi : idx_main_v18 (idx_main_v19 (ix3 p i j)) = ix2 p i :=
    funext fun a => Fin.ext (by match a with | ⟨0, _⟩ => rfl | ⟨1, _⟩ => rfl)
  rw [val_main_v20_apply, val_main_v19_apply, val_main_v18_apply, hi, v16_at, v17_at]
  rfl

theorem v27_at (x0 : Arg0) (p : Fin 4) (i j : Fin 512) : val_main_v27 (F := Ideal) x0 (ix3 p i j) = colExp (sR x0 p) i j := by
  have hi : idx_main_v24 (idx_main_v25 (ix3 p i j)) = ix2 p j :=
    funext fun a => Fin.ext (by match a with | ⟨0, _⟩ => rfl | ⟨1, _⟩ => rfl)
  rw [val_main_v27_apply, val_main_v26_apply, val_main_v25_apply, val_main_v24_apply, hi, v23_at, v9_at]
  rfl

theorem v28_at (x0 : Arg0) (p : Fin 4) (j : Fin 512) :
    val_main_v28 (F := Ideal) x0 (ix2 p j) = ∑ i : Fin 512, colExp (sR x0 p) i j := by
  have hi : ∀ k : Fin 512, idx_main_v28 (ix2 p j) k = ix3 p k j :=
    fun k => funext fun a => Fin.ext (by match a with | ⟨0, _⟩ => rfl | ⟨1, _⟩ => rfl | ⟨2, _⟩ => rfl)
  rw [val_main_v28_apply, val_main_cst_5_apply]
  simp only [hi, v27_at, Ideal.ofBits_def, Ideal.ofBits_zero_f32, zero_add]

theorem v31_at (x0 : Arg0) (p : Fin 4) (i j : Fin 512) : val_main_v31 (F := Ideal) x0 (ix3 p i j) = colAlign (sR x0 p) i j := by
  have hi : idx_main_v29 (idx_main_v30 (ix3 p i j)) = ix2 p j :=
    funext fun a => Fin.ext (by match a with | ⟨0, _⟩ => rfl | ⟨1, _⟩ => rfl)
  rw [val_main_v31_apply, val_main_v30_apply, val_main_v29_apply, hi, v27_at, v28_at]
  rfl

theorem v34_at (x0 : Arg0) (p : Fin 4) (i j : Fin 512) : val_main_v34 (F := Ideal) x0 (ix3 p i j) = symAlign (sR x0 p) i j := by
  rw [val_main_v34_apply, val_main_v32_apply, val_main_v33_apply, v20_at, v31_at]
  rfl

theorem v35_at (x0 : Arg0) (p : Fin 4) (i j : Fin 512) :
    val_main_v35 (F := Ideal) x0 (ix3 p i j) = symAlign (sR x0 p) i j * sR x0 p i j := by
  rw [val_main_v35_apply, v34_at, v9_at]
  rfl

/-! ## The sums over both position axes -/

/-- The host's sum over both position axes from an initial value that is zero, at pair `p`: the double sum over the
    pair's rows and columns. -/
theorem hostSum_pair (x : S4x512x512.Idx → EReal) (init : S_.Idx → EReal) (h0 : init (Shape.Idx.first h_S_) = 0) (p : Fin 4) :
    (Host.reduceAdd (F := Ideal) (φ := .f32) x init reducesTo_S4x512x512_S4_d1_2 h_S_) (ix1 p)
      = ∑ i : Fin 512, ∑ j : Fin 512, x (ix3 p i j) := by
  simp only [Host.reduceAdd, Ideal.hostReduceAdd_def]
  unfold Ideal.hostReduceAdd
  rw [h0, zero_add]
  refine sum_filter_first x _ p fun a b c => ?_
  have hv : ((reducesTo_S4x512x512_S4_d1_2.drop (ix3 a b c)) (0 : Fin 1) : Nat) = a.val :=
    Shape.ReducesTo.drop_apply_val_of_eq reducesTo_S4x512x512_S4_d1_2 (ix3 a b c) (0 : Fin 1) (0 : Fin 3)
  constructor
  · intro h
    have h1 := congrArg Fin.val (congrFun h (0 : Fin 1))
    exact Fin.ext (hv.symm.trans h1)
  · rintro rfl
    funext d
    match d with
    | ⟨0, _⟩ => exact Fin.ext hv

theorem zero_init : (val_main_cst_6 (F := Ideal)) (Shape.Idx.first h_S_) = 0 := by
  rw [val_main_cst_6_apply]; exact Ideal.ofBits_zero_f32
theorem zero_init' : (val_main_cst_7 (F := Ideal)) (Shape.Idx.first h_S_) = 0 := by
  rw [val_main_cst_7_apply]; exact Ideal.ofBits_zero_f32

theorem v38_at (x0 : Arg0) (p : Fin 4) : val_main_v38 (F := Ideal) x0 (ix1 p) = meanScore (sR x0 p) := by
  rw [val_main_v38_apply]
  unfold val_main_v36 val_main_v37
  rw [hostSum_pair _ _ zero_init p, hostSum_pair _ _ zero_init' p]
  simp only [v35_at, v34_at]
  rfl

/-! ## The result -/

/-- The reference's result array is the specification's, index by index. -/
theorem result_at (x0 : Arg0) (x1 : (⟨S1x4, .f32⟩ : BufTy).Contents (Elt Ideal)) (x2 : (⟨S4, .f32⟩ : BufTy).Contents (Elt Ideal))
    (p k : Fin 4) : val_main_v48 (F := Ideal) x0 x1 x2 (ix2 p k) = headOut x0 x1 x2 p k := by
  have h48 : idx_main_v48 (ix2 p k) = ix3 p (0 : Fin 1) k := funext fun a => Fin.ext (by
    have hp : p.val < 4 := p.isLt
    have hk : k.val < 4 := k.isLt
    match a with
    | ⟨0, _⟩ => show (p.val * 4 + k.val) / 4 = p.val; omega
    | ⟨1, _⟩ => rfl
    | ⟨2, _⟩ => show (p.val * 4 + k.val) % 4 = k.val; omega)
  have h40 : idx_main_v40 (idx_main_v41 (ix3 p (0 : Fin 1) k)) = ix1 p :=
    funext fun a => Fin.ext (by match a with | ⟨0, _⟩ => rfl)
  have h39 : idx_main_v39 (idx_main_v42 (ix3 p (0 : Fin 1) k)) = ix2 (0 : Fin 1) k :=
    funext fun a => Fin.ext (by match a with | ⟨0, _⟩ => rfl | ⟨1, _⟩ => rfl)
  have h44 : idx_main_v44 (idx_main_v45 (idx_main_v46 (ix3 p (0 : Fin 1) k))) = ix1 k :=
    funext fun a => Fin.ext (by match a with | ⟨0, _⟩ => rfl)
  rw [val_main_v48_apply, h48, val_main_v47_apply, val_main_v43_apply, val_main_v41_apply, val_main_v40_apply, h40, v38_at,
    val_main_v42_apply, val_main_v39_apply, h39, val_main_v46_apply, val_main_v45_apply, val_main_v44_apply, h44]
  rfl

end Cert.ReferenceIdeal.RefValue

end
-- ==== Proof.lean ====
/-
  The certificate of the soft symmetric alignment head: a one-point kernel that, for each of four pairs of sequences,
  accumulates the L1 distances between all positions feature by feature, takes a row softmax and a column softmax of
  the negated distances, combines them as `a + b - a b`, and returns the alignment-weighted mean score as class logits —
  against the jnp reference that does the same with whole-array operations over all pairs at once.

  On the extended reals both programs compute the specification's `headOut` (Proof/AlignSpec.lean): the kernel's
  unrolled accumulation is the sum over the features (Proof/PairBody.lean, Proof/PairValue.lean), its four row stores
  fill the result array written back at the one grid point (Proof/KernelArray.lean), and the reference's operations
  read pair by pair give the same function (Proof/RefValue.lean). The only rearrangements between the two sides are
  the order of a finite sum, `0 - x = -x`, and a maximum taken from `⊥`, so the precondition is never opened. The
  idealization rewrote nothing, so `preserves` is trivial; the three frames are the generated ones (the reference's
  its generated run with the result dropped).
-/
import proofs.«139066_j47072841564314_2_alg».proof.Defs
import proofs.«139066_j47072841564314_2_alg».proof.Proof.Gen.Kernel
import proofs.«139066_j47072841564314_2_alg».proof.Proof.Gen.Kernel.Skeleton
import proofs.«139066_j47072841564314_2_alg».proof.Proof.Gen.Kernel.Launch
import proofs.«139066_j47072841564314_2_alg».proof.Proof.Gen.Kernel.Points
import proofs.«139066_j47072841564314_2_alg».proof.Proof.Gen.Kernel.Frame
import proofs.«139066_j47072841564314_2_alg».proof.Proof.Gen.KernelIdeal
import proofs.«139066_j47072841564314_2_alg».proof.Proof.Gen.KernelIdeal.Skeleton
import proofs.«139066_j47072841564314_2_alg».proof.Proof.Gen.KernelIdeal.Launch
import proofs.«139066_j47072841564314_2_alg».proof.Proof.Gen.KernelIdeal.Points
import proofs.«139066_j47072841564314_2_alg».proof.Proof.Gen.KernelIdeal.Frame
import proofs.«139066_j47072841564314_2_alg».proof.Proof.Gen.ReferenceIdeal
import proofs.«139066_j47072841564314_2_alg».proof.Proof.Gen.KernelIdeal.Value
import proofs.«139066_j47072841564314_2_alg».proof.Proof.Gen.ReferenceIdeal.Run
import proofs.«139066_j47072841564314_2_alg».proof.Proof.Gen.ReferenceIdeal.Read
import proofs.«139066_j47072841564314_2_alg».proof.Proof.Gen.Pre_finite_inputs
import proofs.«139066_j47072841564314_2_alg».proof.Proof.KernelArray
import proofs.«139066_j47072841564314_2_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both result arrays are the specification's `headOut` of the (agreeing) arguments. -/
theorem algebraic : Cert.algebraic_KernelIdeal_ReferenceIdeal := by
  intro m ρ m' ρ' _ hagree
  refine ⟨fun c => Cert.KernelIdeal.Pair.result m c, Cert.KernelIdeal.Pair.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, (hagree c).1, (hagree c).2.1, (hagree c).2.2]
  funext y
  obtain ⟨p, k, rfl⟩ : ∃ (p k : Fin 4), y = ix2 p k :=
    ⟨⟨(y 0).val, (y 0).isLt⟩, ⟨(y 1).val, (y 1).isLt⟩, funext fun a => match a with | ⟨0, _⟩ => rfl | ⟨1, _⟩ => rfl⟩
  exact (Cert.ReferenceIdeal.RefValue.result_at _ _ _ p k).trans rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
